-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1200000 : Shape := ⟨1, ![1200000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S100000x64 .f32) (main_arg1 : FVec F S50000x64 .f32) (main_arg2 : IVec S1200000 32) (main_arg3 : IVec S1200000 32) (main_arg4 : FVec F S1200000 .f32) (main_arg5 : IVec S16384 32) (main_arg6 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1200000 .f32 := Host.absf main_arg4
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S1200000 : Shape := ⟨1, ![1200000]⟩
abbrev S16384 : Shape := ⟨1, ![16384]⟩
abbrev S150000x64 : Shape := ⟨2, ![150000, 64]⟩
abbrev S_ : Shape := ⟨0, ![]⟩
abbrev S1200000x1 : Shape := ⟨2, ![1200000, 1]⟩
abbrev S1200000x64 : Shape := ⟨2, ![1200000, 64]⟩
abbrev S12000x64 : Shape := ⟨2, ![12000, 64]⟩
abbrev S12000x1 : Shape := ⟨2, ![12000, 1]⟩
abbrev S16384x1 : Shape := ⟨2, ![16384, 1]⟩
abbrev S16384x64 : Shape := ⟨2, ![16384, 64]⟩
abbrev S2048x64 : Shape := ⟨2, ![2048, 64]⟩
abbrev S2048 : Shape := ⟨1, ![2048]⟩

abbrev nBuf : Space → Nat
  | .hbm => 44
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S16384, .i32⟩
  | .hbm, ⟨6, _⟩ => ⟨S16384, .i32⟩
  | .hbm, ⟨7, _⟩ => ⟨S150000x64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x1, .f32⟩
  | .hbm, ⟨18, _⟩ => ⟨S1200000x64, .f32⟩
  | .hbm, ⟨19, _⟩ => ⟨S_, .f32⟩
  | .hbm, ⟨20, _⟩ => ⟨S150000x64, .f32⟩
  | .hbm, ⟨21, _⟩ => ⟨S1200000x1, .i32⟩
  | .hbm, ⟨22, _⟩ => ⟨S150000x64, .f32⟩
  | .hbm, ⟨23, _⟩ => ⟨S100000x64, .f32⟩
  | .hbm, ⟨24, _⟩ => ⟨S50000x64, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x64, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384x64, .f32⟩
  | .hbm, ⟨43, _⟩ => ⟨S16384, .f32⟩
  | .local _ .vmem, ⟨0, _⟩ => ⟨S12000x64, .f32⟩
  | .local _ .vmem, ⟨1, _⟩ => ⟨S12000x64, .f32⟩
  | .local _ .vmem, ⟨2, _⟩ => ⟨S12000x1, .f32⟩
  | .local _ .vmem, ⟨3, _⟩ => ⟨S12000x1, .f32⟩
  | .local _ .vmem, ⟨4, _⟩ => ⟨S12000x64, .f32⟩
  | .local _ .vmem, ⟨5, _⟩ => ⟨S12000x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048, .f32⟩
  | .local _ .vmem, ⟨11, _⟩ => ⟨S2048, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S100000x64_S50000x64_S150000x64_d0 : Shape.Concatenates [S100000x64, S50000x64] S150000x64 0
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S1200000_S1200000x1 : S1200000.ShapeCasts S1200000x1
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  broadcasts_S12000x1_S12000x64 : S12000x1.Broadcasts S12000x64
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  inb_S2048_S2048_0 : ∀ a, (![0] : Fin 1 → Nat) a + S2048.size a ≤ S2048.size a
  h_S2048 : 0 < S2048.numel
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x64.size a ≤ S1200000x64.size a
  hwx0_0 : ∀ i : grid0.Coords, EltTy.bits .f32 = 32 ∨ (Rect.block (s := S1200000x64) S12000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x1.size a ≤ S1200000x1.size a
  hwx0_1 : ∀ i : grid0.Coords, EltTy.bits .f32 = 32 ∨ (Rect.block (s := S1200000x1) S12000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12000x64.size a ≤ S1200000x64.size a
  hwx0_2 : ∀ i : grid0.Coords, EltTy.bits .f32 = 32 ∨ (Rect.block (s := S1200000x64) S12000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S16384.size a
  hwx1_2 : ∀ i : grid1.Coords, EltTy.bits .f32 = 32 ∨ (Rect.block (s := S16384) S2048.size (cc1_transform_2 i) (hinb1_2 i)).WholeWords (EltTy.packing .f32)

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

abbrev win0_0 : Pipeline.Window sig grid0 :=
  Pipeline.Window.ofSpec (Memref.whole main_v7) S12000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S12000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S12000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1200000 : Shape := ⟨1, ![1200000]⟩
abbrev S16384 : Shape := ⟨1, ![16384]⟩
abbrev S150000x64 : Shape := ⟨2, ![150000, 64]⟩
abbrev S1200000x1 : Shape := ⟨2, ![1200000, 1]⟩
abbrev S_ : Shape := ⟨0, ![]⟩
abbrev S1200000x64 : Shape := ⟨2, ![1200000, 64]⟩
abbrev S16384x1 : Shape := ⟨2, ![16384, 1]⟩
abbrev S16384x64 : Shape := ⟨2, ![16384, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S16384, .i32⟩
  | .hbm, ⟨6, _⟩ => ⟨S16384, .i32⟩
  | .hbm, ⟨7, _⟩ => ⟨S150000x64, .f32⟩
  | .hbm, ⟨8, _⟩ => ⟨S1200000x1, .f32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S1200000x64, .f32⟩
  | .hbm, ⟨19, _⟩ => ⟨S1200000x64, .f32⟩
  | .hbm, ⟨20, _⟩ => ⟨S_, .f32⟩
  | .hbm, ⟨21, _⟩ => ⟨S150000x64, .f32⟩
  | .hbm, ⟨22, _⟩ => ⟨S1200000x1, .i32⟩
  | .hbm, ⟨23, _⟩ => ⟨S150000x64, .f32⟩
  | .hbm, ⟨24, _⟩ => ⟨S100000x64, .f32⟩
  | .hbm, ⟨25, _⟩ => ⟨S50000x64, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x64, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x64, .f32⟩
  | .hbm, ⟨44, _⟩ => ⟨S16384x64, .f32⟩
  | .hbm, ⟨45, _⟩ => ⟨S_, .f32⟩
  | .hbm, ⟨46, _⟩ => ⟨S16384, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  gather_S150000x64_S1200000x1_S1200000x64_1_0_n_n_0_1_164_wf : GatherDims.WF S150000x64 S1200000x1 S1200000x64 [1] [0] [] [0] [] 1 ![1, 64]
  scatter_S150000x64_S1200000x1_S1200000x64_1_0_0_1_wf : ScatterDims.WF S150000x64 S1200000x1 S1200000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def gather_S150000x64_S1200000x1_S1200000x64_1_0_n_n_0_1_164 : GatherDims S150000x64 S1200000x1 S1200000x64 where
  offsetDims := [1]
  collapsedSliceDims := [0]
  operandBatchingDims := []
  startIndicesBatchingDims := []
  startIndexMap := [0]
  indexVectorDim := 1
  sliceSizes := ![1, 64]
  wf := gather_S150000x64_S1200000x1_S1200000x64_1_0_n_n_0_1_164_wf
def scatter_S150000x64_S1200000x1_S1200000x64_1_0_0_1 : ScatterDims S150000x64 S1200000x1 S1200000x64 where
  updateWindowDims := [1]
  insertedWindowDims := [0]
  scatterDimsToOperandDims := [0]
  indexVectorDim := 1
  wf := scatter_S150000x64_S1200000x1_S1200000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibHostRowSum.lean ====
/-
  Rows of a rank-2 array on the host, summed. A host reduction of `[a, b]` over its second axis whose body is the
  float sum reads, at row `i` and on the extended reals, the initial value plus the sum of the entries `(i, k)` of
  that row.
-/
import Idealize.ShloMosaic.PureOps.Reduce
import Idealize.ShloMosaic.PureOps.Ideal.Laws
import Idealize.ShloMosaic.Lib.ValueIdx

noncomputable section

open scoped BigOperators

namespace Idealize.ShloMosaic.ValueIdx

open Idealize.ShloMosaic

/-- The entry `(i, k)` is the row index `i` with the coordinate `k` put back on the reduced second axis. -/
theorem rowsum_lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A host float sum over the second axis of `[a, b]`, at row `i`: the initial value plus the sum of that row's
    entries. (`h'` is the shape fact the host operation carries; `h` is the same fact in the form that names the
    inserted index, which `decide` proves at literal shapes.) -/
theorem hostReduceAdd_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ k : Fin b, x (ix2 i k) := by
  simp only [Host.reduceAdd, Ideal.hostReduceAdd_def]
  rw [Ideal.hostReduceAdd_single h' h]
  exact congrArg (init (Shape.Idx.first hu) + ·)
    (Finset.sum_congr rfl fun k _ => congrArg x (rowsum_lift_row h i k))

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibBcastInDim.lean ====
/-
  A `broadcast_in_dim` of small shapes read at an index given by coordinates: a scalar spread over any shape; a
  length-`a` vector set up as the column `[a, 1]`; a column `[a, 1]` repeated along the rows to `[a, b]`; a length-`b`
  vector set up as the row `[1, b]`; a row `[1, b]` repeated down the columns to `[a, b]`. Each reads the operand at the
  coordinates the result's axes hand down, and at `0` on the operand's unit axes.
-/
import Idealize.ShloMosaic.Lib.Pipeline.Value
import Idealize.ShloMosaic.Lib.ValueIdx

namespace Idealize.ShloMosaic.ValueIdx

open Idealize.ShloMosaic

variable {α : Type}

/-- A scalar spread over a shape reads the scalar everywhere. -/
theorem bcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A length-`a` vector as the column `[a, 1]`: at `(i, z)` it reads the vector at `i`. -/
theorem bcastInDim_a_a1_apply {a : ℕ} (h : (⟨1, ![a]⟩ : Shape).BroadcastsInDim ⟨2, ![a, 1]⟩ (![0] : Fin 1 → Fin 2))
    (x : (⟨1, ![a]⟩ : Shape).Idx → α) (i : Fin a) (z : Fin 1) :
    broadcastInDim ⟨2, ![a, 1]⟩ (![0] : Fin 1 → Fin 2) h x (ix2 i z) = x (ix1 i) := by
  refine broadcastInDim_apply _ h x (ix2 i z) (ix1 i) fun ax => ?_
  match ax with
  | ⟨0, _⟩ =>
    show i.val = if a = 1 then 0 else i.val
    split
    · have := i.isLt; omega
    · rfl

/-- A column `[a, 1]` repeated to `[a, b]`: at `(i, j)` it reads the column at `(i, 0)`. -/
theorem bcastInDim_a1_ab_apply {a b : ℕ}
    (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A length-`b` vector as the row `[1, b]`: at `(z, j)` it reads the vector at `j`. -/
theorem bcastInDim_b_1b_apply {b : ℕ} (h : (⟨1, ![b]⟩ : Shape).BroadcastsInDim ⟨2, ![1, b]⟩ (![1] : Fin 1 → Fin 2))
    (x : (⟨1, ![b]⟩ : Shape).Idx → α) (z : Fin 1) (j : Fin b) :
    broadcastInDim ⟨2, ![1, b]⟩ (![1] : Fin 1 → Fin 2) h x (ix2 z j) = x (ix1 j) := by
  refine broadcastInDim_apply _ h x (ix2 z j) (ix1 j) fun ax => ?_
  match ax with
  | ⟨0, _⟩ =>
    show j.val = if b = 1 then 0 else j.val
    split
    · have := j.isLt; omega
    · rfl

/-- A row `[1, b]` repeated to `[a, b]`: at `(i, j)` it reads the row at `(0, j)`. -/
theorem bcastInDim_1b_ab_apply {a b : ℕ}
    (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Idealize.ShloMosaic.ValueIdx
-- ==== Proof.RowOps.lean ====
/-
  Two operations on the rows of a rank-2 array of extended reals, and the two spellings each has in this certificate.

  `scaleRows g v` multiplies row `i` of `g` by the one entry of row `i` of the column `v`:
  `(g ⊙ v)[i, k] = g[i, k] · v[i, 0]`. `rowDot x y` is the row-by-row inner product:
  `(x ⋅ y)[i] = Σₖ x[i, k] · y[i, k]`.

  On a block (a vector unit's view) the first is "broadcast the column along the rows, multiply" and the second is
  "multiply, sum the second axis into a zero accumulator". On whole arrays (the host's view) the first is "set the
  vector up as a column, repeat it along the rows, multiply from the left" and the second is "multiply, reduce the
  second axis with + from the initial value 0". The only laws used are commutativity of the product of extended
  reals and `0 + s = s`; neither needs the entries to be finite.
-/
import Idealize.ShloMosaic.Lib.Pipeline.Value
import Idealize.ShloMosaic.Lib.ValueIdx
import Idealize.ShloMosaic.PureOps.Ideal.Laws
import proofs.«143579_j47425028882648_2_alg».proof.Proof.LibRows
import proofs.«143579_j47425028882648_2_alg».proof.Proof.LibHostRowSum
import proofs.«143579_j47425028882648_2_alg».proof.Proof.LibColumn
import proofs.«143579_j47425028882648_2_alg».proof.Proof.LibBcastInDim

noncomputable section

open scoped BigOperators

namespace Cert.RowOps

open Idealize.ShloMosaic Idealize.ShloMosaic.ValueIdx

variable {a b : ℕ}

/-- Row `i` of `g` times the entry `v[i, 0]` of the column `v`. -/
def scaleRows (g : FVec Ideal ⟨2, ![a, b]⟩ .f32) (v : FVec Ideal ⟨2, ![a, 1]⟩ .f32) : FVec Ideal ⟨2, ![a, b]⟩ .f32 :=
  fun j => g j * v (ix2 (n0 := a) (j 0) (0 : Fin 1))

theorem scaleRows_apply (g : FVec Ideal ⟨2, ![a, b]⟩ .f32) (v : FVec Ideal ⟨2, ![a, 1]⟩ .f32) (i : Fin a) (k : Fin b) :
    scaleRows g v (ix2 i k) = g (ix2 i k) * v (ix2 i (0 : Fin 1)) := rfl

/-- The inner product of row `i` of `x` with row `i` of `y`. -/
def rowDot (x y : FVec Ideal ⟨2, ![a, b]⟩ .f32) : FVec Ideal ⟨1, ![a]⟩ .f32 :=
  fun i => ∑ k : Fin b, x (ix2 (n0 := a) (i 0) k) * y (ix2 (n0 := a) (i 0) k)

theorem rowDot_apply (x y : FVec Ideal ⟨2, ![a, b]⟩ .f32) (i : Fin a) :
    rowDot x y (ix1 i) = ∑ k : Fin b, x (ix2 i k) * y (ix2 i k) := rfl

/-! ## On a block: the vector unit's spelling -/

/-- Broadcasting the column along the rows and multiplying is `scaleRows`. -/
theorem mulf_broadcastTo_eq (g : FVec Ideal ⟨2, ![a, b]⟩ .f32) (v : FVec Ideal ⟨2, ![a, 1]⟩ .f32)
    (h : (⟨2, ![a, 1]⟩ : Shape).Broadcasts ⟨2, ![a, b]⟩) :
    mulf g (broadcastTo ⟨2, ![a, b]⟩ v h) = scaleRows g v := by
  funext j
  obtain ⟨i, k, rfl⟩ : ∃ (i : Fin a) (k : Fin b), j = ix2 i k := ⟨j 0, j 1, eq_ix2 j⟩
  rw [mulf_apply, broadcastTo_a1_ab_apply v h i k, scaleRows_apply]

/-- Multiplying entry by entry and summing the second axis into the zero accumulator is `rowDot`. -/
theorem multiReduction_mulf_eq (x y : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) :
    multiReduction .add [1] ⟨1, ![a]⟩ (mulf x y) acc h hφ hacc = rowDot x y := by
  funext j
  obtain ⟨i, rfl⟩ : ∃ i : Fin a, j = ix1 i := ⟨j 0, eq_ix1 j⟩
  rw [multiReduction_add_row (mulf x y) acc h hφ hacc i, rowDot_apply]
  rfl

/-! ## On whole arrays: the host's spelling -/

/-- A vector set up as a column, repeated along the rows and multiplied from the left is `scaleRows` of the vector
    cast to a column: `v[i] · g[i, k] = g[i, k] · v[i]`. -/
theorem mulf_bcast_eq (g : FVec Ideal ⟨2, ![a, b]⟩ .f32) (v : FVec Ideal ⟨1, ![a]⟩ .f32)
    (h0 : (⟨1, ![a]⟩ : Shape).BroadcastsInDim ⟨2, ![a, 1]⟩ (![0] : Fin 1 → Fin 2))
    (h1 : (⟨2, ![a, 1]⟩ : Shape).BroadcastsInDim ⟨2, ![a, b]⟩ (![0, 1] : Fin 2 → Fin 2))
    (hc : (⟨1, ![a]⟩ : Shape).ShapeCasts ⟨2, ![a, 1]⟩) :
    mulf (broadcastInDim ⟨2, ![a, b]⟩ (![0, 1] : Fin 2 → Fin 2) h1 (broadcastInDim ⟨2, ![a, 1]⟩ (![0] : Fin 1 → Fin 2) h0 v)) g
      = scaleRows g (shapeCast ⟨2, ![a, 1]⟩ v hc) := by
  funext j
  obtain ⟨i, k, rfl⟩ : ∃ (i : Fin a) (k : Fin b), j = ix2 i k := ⟨j 0, j 1, eq_ix2 j⟩
  rw [mulf_apply, bcastInDim_a1_ab_apply h1 _ i k, bcastInDim_a_a1_apply h0 v i (0 : Fin 1), scaleRows_apply,
    shapeCast_a_a1_apply v hc i (0 : Fin 1)]
  exact mul_comm _ _

/-- Multiplying entry by entry and reducing the second axis with + from the initial value 0 is `rowDot`. -/
theorem hostReduceAdd_mulf_eq (x y : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) :
    Host.reduceAdd (mulf x y) (constant (F := Ideal) ⟨0, ![]⟩ .f32 0x00000000#32) h' hu = rowDot x y := by
  funext j
  obtain ⟨i, rfl⟩ : ∃ i : Fin a, j = ix1 i := ⟨j 0, eq_ix1 j⟩
  rw [hostReduceAdd_row (mulf x y) _ h' h hu i, constant_apply, Ideal.ofBits_zero_f32, zero_add, rowDot_apply]
  rfl

end Cert.RowOps

end
-- ==== Proof.Blocks.lean ====
/-
  What each of the two kernel regions leaves in its output array, as ONE function of the arrays the region finds
  when it is entered (the parameter `V`).

  Region 0 walks 100 blocks of 12000 rows. At block `t` the body multiplies the 12000 × 64 block of the first operand,
  entry by entry, by the 12000 × 1 block of the second broadcast along the rows: the block of rows
  `12000·t … 12000·t + 11999` of `scaleRows` of the two whole arrays, because row `r` of the result depends on row `r`
  of each operand only. Region 1 walks 8 blocks of 2048 rows and writes, for each row, the sum over the 64 columns of
  the products of the two operands' entries: the block of entries `2048·t … 2048·t + 2047` of `rowDot` of the two whole
  arrays. In both regions the blocks tile the output array (row `r` lies in block `r / 12000`, entry `r` in block
  `r / 2048`), so the array ends holding the whole-array function.
-/
import proofs.«143579_j47425028882648_2_alg».proof.Proof.Gen.KernelIdeal.Frame
import proofs.«143579_j47425028882648_2_alg».proof.Proof.RowOps
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.ShloMosaic.ValueIdx
open Idealize.SL.Sem
open Cert.KernelIdeal Cert.KernelIdeal.Gen Cert.RowOps

/-! ## The bodies' arithmetic -/

/-- Region 0's stored value is `scaleRows` of the two loaded blocks (the two casts are to the same shape). -/
theorem pay0 (x0 : Vec Ideal S12000x64 .f32) (x1 : Vec Ideal S12000x1 .f32) :
    k0_pay1 (F := Ideal) x0 x1 = scaleRows x0 x1 := by
  unfold k0_pay1
  dsimp only
  rw [shapeCast_self, shapeCast_self]
  exact mulf_broadcastTo_eq x0 x1 _

/-- Region 1's stored value is `rowDot` of the two loaded blocks. -/
theorem pay1 (x0 x1 : Vec Ideal S2048x64 .f32) :
    k1_pay1 (F := Ideal) x0 x1 = rowDot x0 x1 := by
  unfold k1_pay1
  dsimp only
  rw [shapeCast_self, shapeCast_self]
  exact multiReduction_mulf_eq x0 x1 _ _ _ _

/-! ## A block of rows of a row operation is the row operation of the blocks of rows -/

/-- If `x0`, `x1` are `G`, `C` read through index maps that send row `r` of the block to one and the same row of the
    arrays, `scaleRows x0 x1` is `scaleRows G C` read through the first map. -/
theorem scaleRows_block (G : FVec Ideal S1200000x64 .f32) (C : FVec Ideal S1200000x1 .f32)
    (x0 : Vec Ideal S12000x64 .f32) (x1 : Vec Ideal S12000x1 .f32)
    (e0 : S12000x64.Idx → S1200000x64.Idx) (e1 : S12000x1.Idx → S1200000x1.Idx)
    (h0 : ∀ y, x0 y = G (e0 y)) (h1 : ∀ y, x1 y = C (e1 y))
    (he : ∀ y : S12000x64.Idx, e1 (ix2 (n0 := 12000) (y 0) (0 : Fin 1)) = ix2 (n0 := 1200000) ((e0 y) 0) (0 : Fin 1))
    (y : S12000x64.Idx) : scaleRows x0 x1 y = scaleRows G C (e0 y) := by
  unfold scaleRows
  rw [h0, h1, he]

/-- If `x0`, `x1` are `X`, `Y` read through index maps that send entry `(r, k)` of the block to entry `(e r, k)` of the
    arrays, `rowDot x0 x1` is `rowDot X Y` read through `e`. -/
theorem rowDot_block (X Y : FVec Ideal S16384x64 .f32) (x0 x1 : Vec Ideal S2048x64 .f32)
    (e0 e1 : S2048x64.Idx → S16384x64.Idx) (e : S2048.Idx → S16384.Idx)
    (h0 : ∀ y, x0 y = X (e0 y)) (h1 : ∀ y, x1 y = Y (e1 y))
    (he0 : ∀ (y : S2048.Idx) (k : Fin 64), e0 (ix2 (n0 := 2048) (y 0) k) = ix2 (n0 := 16384) ((e y) 0) k)
    (he1 : ∀ (y : S2048.Idx) (k : Fin 64), e1 (ix2 (n0 := 2048) (y 0) k) = ix2 (n0 := 16384) ((e y) 0) k)
    (y : S2048.Idx) : rowDot x0 x1 y = rowDot X Y (e y) := by
  unfold rowDot
  refine Finset.sum_congr rfl fun k _ => ?_
  rw [h0, h1, he0, he1]

theorem hz2 : (![0, 0] : Fin 2 → Nat) = fun _ => 0 := funext fun a => by fin_cases a <;> rfl
theorem hz1 : (![0] : Fin 1 → Nat) = fun _ => 0 := funext fun a => by fin_cases a <;> rfl

section Regions

variable (V : (c : Dev nD) → (b : Ref sig .tc) → Buf (Elt Ideal) ((c : Thread nD τ).loc b))

/-! ## Region 0 -/

/-- The printed index maps over the grid: at point `t` every window is at block row `t`, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaleRows` of the two operand arrays as the region finds them. -/
theorem flushed0 (c : Dev nD) (t : Fin cfg0.N) :
    (dat0 V c).flushed 2 t
      = ((cfg0.win 2).blk t).view.read (Elt Ideal) (scaleRows (V c main_v7) (V c main_v8)) := by
  show (cfg0.win 2).cut (grid0.coords t) ((dat0 V c).after 2 t) = _
  rw [after0_2]
  unfold out0_2
  rw [View.canon_unit_zero hz2]
  simp only [View.ld_unit_zero (S := S12000x64) hz2, View.ld_unit_zero (S := S12000x1) hz2]
  rw [pay0]
  obtain ⟨e00, e01, e10, e11, e20, e21⟩ := idx0 t
  funext j
  show scaleRows (iblk0 V c 0 t) (iblk0 V c 1 t) j
    = scaleRows (V c main_v7) (V c main_v8) (((cfg0.win 2).blk t).view.emb j)
  have h02 : ((cfg0.win 0).blk t).view.emb j = ((cfg0.win 2).blk t).view.emb j := by
    funext a; apply Fin.ext
    match a with
    | ⟨0, _⟩ =>
      show win0_0.index t (0 : Fin 2) * 12000 + 1 * (j 0).val = win0_2.index t (0 : Fin 2) * 12000 + 1 * (j 0).val
      rw [e00, e20]
    | ⟨1, _⟩ =>
      show win0_0.index t (1 : Fin 2) * 64 + 1 * (j 1).val = win0_2.index t (1 : Fin 2) * 64 + 1 * (j 1).val
      rw [e01, e21]
  rw [← h02]
  refine scaleRows_block (V c main_v7) (V c main_v8) (iblk0 V c 0 t) (iblk0 V c 1 t)
    (((cfg0.win 0).blk t).view.emb) (((cfg0.win 1).blk t).view.emb) (fun y => rfl) (fun y => rfl) (fun y => ?_) j
  funext a; apply Fin.ext
  match a with
  | ⟨0, _⟩ =>
    show win0_1.index t (0 : Fin 2) * 12000 + 1 * (y 0).val = win0_0.index t (0 : Fin 2) * 12000 + 1 * (y 0).val
    rw [e10, e00]
  | ⟨1, _⟩ =>
    show win0_1.index t (1 : Fin 2) * 1 + 1 * 0 = 0
    rw [e11]

/-- An index of the output array is in point `t`'s block iff each coordinate is in the block's range on its axis. -/
theorem mem_blk0 (t : Fin cfg0.N) (i : S1200000x64.Idx) :
    i ∈ ((cfg0.win 2).blk t).view.set ↔ ∀ a : Fin 2, win0_2.index t a * S12000x64.size a ≤ (i a).val
      ∧ (i a).val < win0_2.index t a * S12000x64.size a + S12000x64.size a := by
  show i ∈ ((View.whole main_v9).slice (win0_2.rect t)).set ↔ _
  rw [View.set_slice_whole, Rect.mem_set_unit]
  exact Iff.rfl

/-- Row `r` of the output array lies in the block of point `r / 12000`. -/
theorem cover0 (i : S1200000x64.Idx) :
    ∃ t : Fin cfg0.N, (cfg0.win 2).flush t = true ∧ i ∈ ((cfg0.win 2).blk t).view.set := by
  have hi0 : (i 0).val < 1200000 := (i 0).isLt
  have hi1 : (i 1).val < 64 := (i 1).isLt
  have hN : grid0.N = 100 := N_0
  have ht : (i 0).val / 12000 < grid0.N := by rw [hN]; omega
  obtain ⟨-, -, -, -, e20, e21⟩ := idx0 ⟨(i 0).val / 12000, ht⟩
  refine ⟨⟨(i 0).val / 12000, ht⟩, flush0_2 _, ?_⟩
  rw [mem_blk0]
  intro a
  match a with
  | ⟨0, _⟩ =>
    show win0_2.index ⟨(i 0).val / 12000, ht⟩ (0 : Fin 2) * 12000 ≤ (i 0).val
      ∧ (i 0).val < win0_2.index ⟨(i 0).val / 12000, ht⟩ (0 : Fin 2) * 12000 + 12000
    rw [e20]
    show (i 0).val / 12000 * 12000 ≤ (i 0).val ∧ (i 0).val < (i 0).val / 12000 * 12000 + 12000
    omega
  | ⟨1, _⟩ =>
    show win0_2.index ⟨(i 0).val / 12000, ht⟩ (1 : Fin 2) * 64 ≤ (i 1).val
      ∧ (i 1).val < win0_2.index ⟨(i 0).val / 12000, ht⟩ (1 : Fin 2) * 64 + 64
    rw [e21]
    omega

/-- Region 0's output array after the region: `scaleRows` of its two operand arrays as the region finds them. -/
theorem final0 (c : Dev nD) : (dat0 V c).arrAt 2 cfg0.N = scaleRows (V c main_v7) (V c main_v8) :=
  (dat0 V c).arrAt_eq_of_cover 2 (scaleRows (V c main_v7) (V c main_v8)) (fun t _ => flushed0 V c t) cover0

/-! ## Region 1 -/

/-- The printed index maps over the grid: at point `t` every window is at block `t` (block column 0 for the operands). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = t.val :=
  (by decide +kernel : ∀ t : Fin grid1.N, _)

/-- What point `t` writes back is block `t` of `rowDot` of the two operand arrays as the region finds them. -/
theorem flushed1 (c : Dev nD) (t : Fin cfg1.N) :
    (dat1 V c).flushed 2 t
      = ((cfg1.win 2).blk t).view.read (Elt Ideal) (rowDot (V c main_v21) (V c main_v28)) := by
  show (cfg1.win 2).cut (grid1.coords t) ((dat1 V c).after 2 t) = _
  rw [after1_2]
  unfold out1_2
  rw [View.canon_unit_zero hz1]
  simp only [View.ld_unit_zero (S := S2048x64) hz2]
  rw [pay1]
  obtain ⟨e00, e01, e10, e11, e20⟩ := idx1 t
  funext j
  show rowDot (iblk1 V c 0 t) (iblk1 V c 1 t) j
    = rowDot (V c main_v21) (V c main_v28) (((cfg1.win 2).blk t).view.emb j)
  refine rowDot_block (V c main_v21) (V c main_v28) (iblk1 V c 0 t) (iblk1 V c 1 t)
    (((cfg1.win 0).blk t).view.emb) (((cfg1.win 1).blk t).view.emb) (((cfg1.win 2).blk t).view.emb)
    (fun y => rfl) (fun y => rfl) (fun y k => ?_) (fun y k => ?_) j
  · funext a; apply Fin.ext
    match a with
    | ⟨0, _⟩ =>
      show win1_0.index t (0 : Fin 2) * 2048 + 1 * (y 0).val = win1_2.index t (0 : Fin 1) * 2048 + 1 * (y 0).val
      rw [e00, e20]
    | ⟨1, _⟩ =>
      show win1_0.index t (1 : Fin 2) * 64 + 1 * k.val = k.val
      rw [e01]; omega
  · funext a; apply Fin.ext
    match a with
    | ⟨0, _⟩ =>
      show win1_1.index t (0 : Fin 2) * 2048 + 1 * (y 0).val = win1_2.index t (0 : Fin 1) * 2048 + 1 * (y 0).val
      rw [e10, e20]
    | ⟨1, _⟩ =>
      show win1_1.index t (1 : Fin 2) * 64 + 1 * k.val = k.val
      rw [e11]; omega

/-- An index of the output array is in point `t`'s block iff its coordinate is in the block's range. -/
theorem mem_blk1 (t : Fin cfg1.N) (i : S16384.Idx) :
    i ∈ ((cfg1.win 2).blk t).view.set ↔ ∀ a : Fin 1, win1_2.index t a * S2048.size a ≤ (i a).val
      ∧ (i a).val < win1_2.index t a * S2048.size a + S2048.size a := by
  show i ∈ ((View.whole main_v29).slice (win1_2.rect t)).set ↔ _
  rw [View.set_slice_whole, Rect.mem_set_unit]
  exact Iff.rfl

/-- Entry `r` of the output array lies in the block of point `r / 2048`. -/
theorem cover1 (i : S16384.Idx) :
    ∃ t : Fin cfg1.N, (cfg1.win 2).flush t = true ∧ i ∈ ((cfg1.win 2).blk t).view.set := by
  have hi0 : (i 0).val < 16384 := (i 0).isLt
  have hN : grid1.N = 8 := N_1
  have ht : (i 0).val / 2048 < grid1.N := by rw [hN]; omega
  obtain ⟨-, -, -, -, e20⟩ := idx1 ⟨(i 0).val / 2048, ht⟩
  refine ⟨⟨(i 0).val / 2048, ht⟩, flush1_2 _, ?_⟩
  rw [mem_blk1]
  intro a
  match a with
  | ⟨0, _⟩ =>
    show win1_2.index ⟨(i 0).val / 2048, ht⟩ (0 : Fin 1) * 2048 ≤ (i 0).val
      ∧ (i 0).val < win1_2.index ⟨(i 0).val / 2048, ht⟩ (0 : Fin 1) * 2048 + 2048
    rw [e20]
    show (i 0).val / 2048 * 2048 ≤ (i 0).val ∧ (i 0).val < (i 0).val / 2048 * 2048 + 2048
    omega

/-- Region 1's output array after the region: `rowDot` of its two operand arrays as the region finds them. -/
theorem final1 (c : Dev nD) : (dat1 V c).arrAt 2 cfg1.N = rowDot (V c main_v21) (V c main_v28) :=
  (dat1 V c).arrAt_eq_of_cover 2 (rowDot (V c main_v21) (V c main_v28)) (fun t _ => flushed1 V c t) cover1

end Regions

end Cert.KernelIdeal.Blocks

end
-- ==== Proof.Named.lean ====
/-
  The kernel program's run with its RESULT named. The program is four segments: host operations, region 0, host
  operations, region 1. Its run leaves every unscoped buffer at the contents `W4` reached by folding the segments over
  the launch memory; read at the result buffer, that is what region 1's write-backs leave in its output array.
-/
import proofs.«143579_j47425028882648_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents `W4` and the argument arrays as launched. -/
theorem run_named : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result buffer is region 1's output array: `W4` there is what region 1's write-backs leave. -/
theorem W4_result (c : Dev nD) :
    W4 m ρ c (Proc.devRef .tc main_v29) = (dat1 (V3 m ρ) c).arrAt 2 cfg1.N :=
  W4_arr m ρ c 2

end Cert.KernelIdeal.Named

end
-- ==== Proof.Result.lean ====
/-
  The kernel program's result as ONE function of its seven arguments, and the proof that the run ends there.

  Reading the program from the end: the result is region 1's output array, the row-by-row inner product (`rowDot`) of
  two gathered arrays; each was gathered, by an index vector shifted where negative, from one slice of a scatter-add
  into zeros; the scattered updates are region 0's output array, `scaleRows` of a gather from the concatenated tables
  and of the value vector cast to a column. Every host operation is kept as the operation it is — only the two regions
  are replaced by the row operations their blocks tile.
-/
import proofs.«143579_j47425028882648_2_alg».proof.Proof.Gen.KernelIdeal.Frame
import proofs.«143579_j47425028882648_2_alg».proof.Proof.RowOps
import proofs.«143579_j47425028882648_2_alg».proof.Proof.Blocks
import proofs.«143579_j47425028882648_2_alg».proof.Proof.Named
import Idealize.ShloMosaic.Lib.StableHlo.Run

set_option maxRecDepth 16384

noncomputable section

namespace Cert.KernelIdeal.Named

open Idealize.ShloMosaic Idealize.ShloMosaic.TcCoe Idealize.ShloMosaic.StableHlo
open Idealize.SL.Sem
open Cert.KernelIdeal Cert.KernelIdeal.Gen Cert.RowOps

/-- The propagated table: the entries `vals[e] · E[cols[e], ·]` added into row `rows[e]` of a zero table, where `E` is the
    user table on top of the item table and a negative column index counts from the end. -/
def propagated (users : FVec Ideal S100000x64 .f32) (items : FVec Ideal S50000x64 .f32) (rows cols : IVec S1200000 32)
    (vals : FVec Ideal S1200000 .f32) : FVec Ideal S150000x64 .f32 :=
  Host.scatterAdd scatter_S150000x64_S1200000x1_S1200000x64_1_0_0_1
    (broadcastInDim S150000x64 ![] bcast_S_S150000x64 (constant (F := Ideal) S_ .f32 0x00000000#32))
    (broadcastInDim S1200000x1 ![0] bcast_S1200000_S1200000x1_0 rows)
    (scaleRows
      (Host.gather gather_S150000x64_S1200000x1_S1200000x64_1_0_n_n_0_1_164
        (concatenate S150000x64 0 [⟨S100000x64, users⟩, ⟨S50000x64, items⟩] concatenates_S100000x64_S50000x64_S150000x64_d0)
        (broadcastInDim S1200000x1 ![0] bcast_S1200000_S1200000x1_0
          (select (cmpi .slt cols (broadcastInDim S1200000 ![] bcast_S_S1200000 (constantI S_ 32 0#32)))
            (addi cols (broadcastInDim S1200000 ![] bcast_S_S1200000 (constantI S_ 32 150000#32))) cols)))
      (shapeCast S1200000x1 vals shapeCasts_S1200000_S1200000x1))

/-- The scores: for each query, the inner product of the propagated user row and the propagated item row it names
    (a negative index counting from the end of its table). -/
def result (users : FVec Ideal S100000x64 .f32) (items : FVec Ideal S50000x64 .f32) (rows cols : IVec S1200000 32)
    (vals : FVec Ideal S1200000 .f32) (u i : IVec S16384 32) : FVec Ideal S16384 .f32 :=
  rowDot
    (Host.gather gather_S100000x64_S16384x1_S16384x64_1_0_n_n_0_1_164
      (extractStridedSlice S100000x64 ![0, 0] (propagated users items rows cols vals) slices_S150000x64_S100000x64_0_0)
      (broadcastInDim S16384x1 ![0] bcast_S16384_S16384x1_0
        (select (cmpi .slt u (broadcastInDim S16384 ![] bcast_S_S16384 (constantI S_ 32 0#32)))
          (addi u (broadcastInDim S16384 ![] bcast_S_S16384 (constantI S_ 32 100000#32))) u)))
    (Host.gather gather_S50000x64_S16384x1_S16384x64_1_0_n_n_0_1_164
      (extractStridedSlice S50000x64 ![100000, 0] (propagated users items rows cols vals) slices_S150000x64_S50000x64_100000_0)
      (broadcastInDim S16384x1 ![0] bcast_S16384_S16384x1_0
        (select (cmpi .slt i (broadcastInDim S16384 ![] bcast_S_S16384 (constantI S_ 32 0#32)))
          (addi i (broadcastInDim S16384 ![] bcast_S_S16384 (constantI S_ 32 50000#32))) i)))

variable (m : (ℓ : Loc nD τ sig) → Buf (Elt Ideal) ℓ) (ρ : Dev nD → PrngReg)

/-- An argument no window of region 0 and no host operation before it writes is, when region 0 is left, as launched. -/
theorem W2_main_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_main_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem W2_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

/-- Region 0's output array when region 0 is left: `scaleRows` of the two arrays the first stretch of host operations
    wrote. -/
theorem W2_main_v9 (c : Dev nD) :
    W2 m ρ c (Proc.devRef .tc main_v9) = scaleRows (V1 m ρ c main_v7) (V1 m ρ c main_v8) :=
  (W2_arr m ρ c 2).trans (Blocks.final0 (V1 m ρ) c)

/-- The gathered table rows region 0 reads, from the launch memory. -/
theorem V1_main_v7 (c : Dev nD) : V1 m ρ c main_v7
    = Host.gather gather_S150000x64_S1200000x1_S1200000x64_1_0_n_n_0_1_164
        (concatenate S150000x64 0 [⟨S100000x64, m ((c : Thread nD τ).loc main_arg0)⟩, ⟨S50000x64, m ((c : Thread nD τ).loc main_arg1)⟩] concatenates_S100000x64_S50000x64_S150000x64_d0)
        (broadcastInDim S1200000x1 ![0] bcast_S1200000_S1200000x1_0
          (select (cmpi .slt (m ((c : Thread nD τ).loc main_arg3)) (broadcastInDim S1200000 ![] bcast_S_S1200000 (constantI S_ 32 0#32)))
            (addi (m ((c : Thread nD τ).loc main_arg3)) (broadcastInDim S1200000 ![] bcast_S_S1200000 (constantI S_ 32 150000#32)))
            (m ((c : Thread nD τ).loc main_arg3)))) := by
  show StableHlo.after hostOps0 (W0 m ρ c) (Proc.devRef .tc main_v7) = _
  after_results <;> rfl

/-- The value vector as a column, from the launch memory. -/
theorem V1_main_v8 (c : Dev nD) : V1 m ρ c main_v8
    = shapeCast S1200000x1 (m ((c : Thread nD τ).loc main_arg4)) shapeCasts_S1200000_S1200000x1 := by
  show StableHlo.after hostOps0 (W0 m ρ c) (Proc.devRef .tc main_v8) = _
  after_results <;> rfl

/-- The scatter-add the second stretch of host operations computes, from the launch memory. -/
theorem scattered (c : Dev nD) :
    Host.scatterAdd scatter_S150000x64_S1200000x1_S1200000x64_1_0_0_1
      (broadcastInDim S150000x64 ![] bcast_S_S150000x64 (constant (F := Ideal) S_ .f32 0x00000000#32))
      (broadcastInDim S1200000x1 ![0] bcast_S1200000_S1200000x1_0 (W2 m ρ c (Proc.devRef .tc main_arg2)))
      (W2 m ρ c (Proc.devRef .tc main_v9))
    = propagated (m ((c : Thread nD τ).loc main_arg0)) (m ((c : Thread nD τ).loc main_arg1)) (m ((c : Thread nD τ).loc main_arg2))
        (m ((c : Thread nD τ).loc main_arg3)) (m ((c : Thread nD τ).loc main_arg4)) := by
  rw [W2_main_arg2, W2_main_v9, V1_main_v7, V1_main_v8]
  rfl

/-- The first gathered operand of region 1, from the contents region 0 leaves. -/
theorem V3_main_v21 (c : Dev nD) : V3 m ρ c main_v21
    = Host.gather gather_S100000x64_S16384x1_S16384x64_1_0_n_n_0_1_164
        (extractStridedSlice S100000x64 ![0, 0]
          (Host.scatterAdd scatter_S150000x64_S1200000x1_S1200000x64_1_0_0_1
            (broadcastInDim S150000x64 ![] bcast_S_S150000x64 (constant (F := Ideal) S_ .f32 0x00000000#32))
            (broadcastInDim S1200000x1 ![0] bcast_S1200000_S1200000x1_0 (W2 m ρ c (Proc.devRef .tc main_arg2)))
            (W2 m ρ c (Proc.devRef .tc main_v9)))
          slices_S150000x64_S100000x64_0_0)
        (broadcastInDim S16384x1 ![0] bcast_S16384_S16384x1_0
          (select (cmpi .slt (W2 m ρ c (Proc.devRef .tc main_arg5)) (broadcastInDim S16384 ![] bcast_S_S16384 (constantI S_ 32 0#32)))
            (addi (W2 m ρ c (Proc.devRef .tc main_arg5)) (broadcastInDim S16384 ![] bcast_S_S16384 (constantI S_ 32 100000#32)))
            (W2 m ρ c (Proc.devRef .tc main_arg5)))) := by
  show StableHlo.after hostOps1 (W2 m ρ c) (Proc.devRef .tc main_v21) = _
  after_results_simp <;> rfl

/-- The second gathered operand of region 1, from the contents region 0 leaves. -/
theorem V3_main_v28 (c : Dev nD) : V3 m ρ c main_v28
    = Host.gather gather_S50000x64_S16384x1_S16384x64_1_0_n_n_0_1_164
        (extractStridedSlice S50000x64 ![100000, 0]
          (Host.scatterAdd scatter_S150000x64_S1200000x1_S1200000x64_1_0_0_1
            (broadcastInDim S150000x64 ![] bcast_S_S150000x64 (constant (F := Ideal) S_ .f32 0x00000000#32))
            (broadcastInDim S1200000x1 ![0] bcast_S1200000_S1200000x1_0 (W2 m ρ c (Proc.devRef .tc main_arg2)))
            (W2 m ρ c (Proc.devRef .tc main_v9)))
          slices_S150000x64_S50000x64_100000_0)
        (broadcastInDim S16384x1 ![0] bcast_S16384_S16384x1_0
          (select (cmpi .slt (W2 m ρ c (Proc.devRef .tc main_arg6)) (broadcastInDim S16384 ![] bcast_S_S16384 (constantI S_ 32 0#32)))
            (addi (W2 m ρ c (Proc.devRef .tc main_arg6)) (broadcastInDim S16384 ![] bcast_S_S16384 (constantI S_ 32 50000#32)))
            (W2 m ρ c (Proc.devRef .tc main_arg6)))) := by
  show StableHlo.after hostOps1 (W2 m ρ c) (Proc.devRef .tc main_v28) = _
  after_results_simp <;> rfl

/-- The result buffer after the run is `result` of the seven arguments as launched. -/
theorem W4_eq_result (c : Dev nD) : W4 m ρ c (Proc.devRef .tc main_v29)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W4_result, Blocks.final1 (V3 m ρ) c, V3_main_v21, V3_main_v28, scattered, W2_main_arg5, W2_main_arg6]
  rfl

/-- The kernel program's run: every weakly fair execution terminates, nothing faulting, the result buffer at `result`
    of the arguments and the arguments as launched. -/
theorem run : θ_run defs (onTc (τ := τ) (main (F := Ideal))) ⟨m, fun _ => 0, ρ⟩ (fun r => ∀ c : Dev nD,
      r.2.mem ((c.tc : Thread nD τ).loc main_v29)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_eq_result m ρ c), (h c).2⟩) (run_named m ρ)

end Cert.KernelIdeal.Named

end
-- ==== Proof.Bridge.lean ====
/-
  The reference program's result is the kernel program's: one function of the seven arguments.

  The reference computes, on the host, `reduce₊ (U ⊙ I)` over the second axis from the initial value 0, where the
  scattered updates are `(vals as a column, repeated along the rows) ⊙ gathered`. The kernel program's `result` is
  `rowDot U I` over updates `scaleRows gathered (vals cast to a column)`. The two reductions are the same sum
  (`0 + s = s`), the two products differ by the order of the factors, and every other operation — the concatenation,
  the index shifts, the three gathers, the scatter-add into zeros, the two slices — is the same operation of the same
  operands on both sides.
-/
import proofs.«143579_j47425028882648_2_alg».proof.Proof.Gen.ReferenceIdeal.Run
import proofs.«143579_j47425028882648_2_alg».proof.Proof.RowOps
import proofs.«143579_j47425028882648_2_alg».proof.Proof.Result

set_option maxRecDepth 16384

noncomputable section

namespace Cert.ReferenceIdeal.RefValue

open Cert.ReferenceIdeal Cert.ReferenceIdeal.Gen Idealize.ShloMosaic

/-- The reference run's result term is `result` of the same arguments. -/
theorem reference_eq_result (a0 : FVec Ideal S100000x64 .f32) (a1 : FVec Ideal S50000x64 .f32) (a2 a3 : IVec S1200000 32)
    (a4 : FVec Ideal S1200000 .f32) (a5 a6 : IVec S16384 32) :
    Host.reduceAdd (mulf (Host.gather gather_S100000x64_S16384x1_S16384x64_1_0_n_n_0_1_164 (extractStridedSlice S100000x64 ![0, 0] (Host.scatterAdd scatter_S150000x64_S1200000x1_S1200000x64_1_0_0_1 (broadcastInDim S150000x64 ![] bcast_S_S150000x64 (constant (F := Ideal) S_ .f32 0x00000000#32)) (broadcastInDim S1200000x1 ![0] bcast_S1200000_S1200000x1_0 a2) (mulf (broadcastInDim S1200000x64 ![0, 1] bcast_S1200000x1_S1200000x64_0_1 (broadcastInDim S1200000x1 ![0] bcast_S1200000_S1200000x1_0 a4)) (Host.gather gather_S150000x64_S1200000x1_S1200000x64_1_0_n_n_0_1_164 (concatenate S150000x64 0 [⟨S100000x64, a0⟩, ⟨S50000x64, a1⟩] concatenates_S100000x64_S50000x64_S150000x64_d0) (broadcastInDim S1200000x1 ![0] bcast_S1200000_S1200000x1_0 (select (cmpi .slt a3 (broadcastInDim S1200000 ![] bcast_S_S1200000 (constantI S_ 32 0#32))) (addi a3 (broadcastInDim S1200000 ![] bcast_S_S1200000 (constantI S_ 32 150000#32))) a3))))) slices_S150000x64_S100000x64_0_0) (broadcastInDim S16384x1 ![0] bcast_S16384_S16384x1_0 (select (cmpi .slt a5 (broadcastInDim S16384 ![] bcast_S_S16384 (constantI S_ 32 0#32))) (addi a5 (broadcastInDim S16384 ![] bcast_S_S16384 (constantI S_ 32 100000#32))) a5))) (Host.gather gather_S50000x64_S16384x1_S16384x64_1_0_n_n_0_1_164 (extractStridedSlice S50000x64 ![100000, 0] (Host.scatterAdd scatter_S150000x64_S1200000x1_S1200000x64_1_0_0_1 (broadcastInDim S150000x64 ![] bcast_S_S150000x64 (constant (F := Ideal) S_ .f32 0x00000000#32)) (broadcastInDim S1200000x1 ![0] bcast_S1200000_S1200000x1_0 a2) (mulf (broadcastInDim S1200000x64 ![0, 1] bcast_S1200000x1_S1200000x64_0_1 (broadcastInDim S1200000x1 ![0] bcast_S1200000_S1200000x1_0 a4)) (Host.gather gather_S150000x64_S1200000x1_S1200000x64_1_0_n_n_0_1_164 (concatenate S150000x64 0 [⟨S100000x64, a0⟩, ⟨S50000x64, a1⟩] concatenates_S100000x64_S50000x64_S150000x64_d0) (broadcastInDim S1200000x1 ![0] bcast_S1200000_S1200000x1_0 (select (cmpi .slt a3 (broadcastInDim S1200000 ![] bcast_S_S1200000 (constantI S_ 32 0#32))) (addi a3 (broadcastInDim S1200000 ![] bcast_S_S1200000 (constantI S_ 32 150000#32))) a3))))) slices_S150000x64_S50000x64_100000_0) (broadcastInDim S16384x1 ![0] bcast_S16384_S16384x1_0 (select (cmpi .slt a6 (broadcastInDim S16384 ![] bcast_S_S16384 (constantI S_ 32 0#32))) (addi a6 (broadcastInDim S16384 ![] bcast_S_S16384 (constantI S_ 32 50000#32))) a6)))) (constant (F := Ideal) S_ .f32 0x00000000#32) reducesTo_S16384x64_S16384_d1 h_S_
      = Cert.KernelIdeal.Named.result a0 a1 a2 a3 a4 a5 a6 := by
  rw [Cert.RowOps.hostReduceAdd_mulf_eq _ _ _ (by decide) _,
    Cert.RowOps.mulf_bcast_eq _ _ _ _ Cert.KernelIdeal.Gen.shapeCasts_S1200000_S1200000x1]
  rfl

end Cert.ReferenceIdeal.RefValue

end
-- ==== Proof.lean ====
/-
  Equivalence, over the extended reals, of a graph-propagation scoring program with two vector-unit regions against its
  plain reference.

  Both programs stack the user table on the item table, gather one table row per edge (a negative column index
  counting from the end), scale each gathered row by the edge's value, add the scaled rows into a zero table at the
  edges' row indices, cut that table back into its user part and its item part, gather one row of each per query, and
  score a query by the inner product of its two rows. The kernel program does the scaling in a region that walks
  100 blocks of 12000 edges and the scoring in a region that walks 8 blocks of 2048 queries; everything else is the same
  host operation on both sides.

  So the proof has three parts. (1) Each region's output array, after its write-backs, is one whole-array function of
  the arrays the region found: `scaleRows` for the first, `rowDot` for the second, because a block of rows of either
  is the same operation of the operands' blocks of rows and the blocks tile the output (Blocks). (2) The program's run
  leaves the result buffer at the fold of its four segments over the launch memory; read through the two stretches of
  host operations this is `result` of the seven arguments (Named, Result). (3) The reference's composed term is the same
  `result`: its host reduction from 0 is `rowDot`, and its product "value column times gathered rows" is `scaleRows` by
  commutativity of the product (RowOps, Bridge). No step needs an entry to be finite, so the precondition is never
  opened. The idealization rewrote nothing, so `preserves` is `True`.
-/
import proofs.«143579_j47425028882648_2_alg».proof.Defs
import proofs.«143579_j47425028882648_2_alg».proof.Proof.Gen.Kernel
import proofs.«143579_j47425028882648_2_alg».proof.Proof.Gen.Kernel.Skeleton
import proofs.«143579_j47425028882648_2_alg».proof.Proof.Gen.Kernel.Launch
import proofs.«143579_j47425028882648_2_alg».proof.Proof.Gen.Kernel.Points
import proofs.«143579_j47425028882648_2_alg».proof.Proof.Gen.Kernel.Frame
import proofs.«143579_j47425028882648_2_alg».proof.Proof.Gen.KernelIdeal
import proofs.«143579_j47425028882648_2_alg».proof.Proof.Gen.KernelIdeal.Skeleton
import proofs.«143579_j47425028882648_2_alg».proof.Proof.Gen.KernelIdeal.Launch
import proofs.«143579_j47425028882648_2_alg».proof.Proof.Gen.KernelIdeal.Points
import proofs.«143579_j47425028882648_2_alg».proof.Proof.Gen.KernelIdeal.Frame
import proofs.«143579_j47425028882648_2_alg».proof.Proof.Gen.ReferenceIdeal
import proofs.«143579_j47425028882648_2_alg».proof.Proof.Gen.Pre_finite_inputs
import proofs.«143579_j47425028882648_2_alg».proof.Proof.Gen.ReferenceIdeal.Run
import proofs.«143579_j47425028882648_2_alg».proof.Proof.Result
import proofs.«143579_j47425028882648_2_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the result buffer at `result` of those
    arguments. -/
theorem algebraic : Cert.algebraic_KernelIdeal_ReferenceIdeal := by
  intro m ρ m' ρ' _ hagree
  refine ⟨_, Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  exact Cert.ReferenceIdeal.RefValue.reference_eq_result _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
